-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S16000000 : Shape := ⟨1, ![16000000]⟩
abbrev S2x16000000 : Shape := ⟨2, ![2, 16000000]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S16000000 : S_.BroadcastsInDim S16000000 (![] : Fin 0 → Fin S16000000.rank)
  reducesTo_S16000000_S_d0 : S16000000.ReducesTo [0] S_

variable [Facts]

def fn_part1 {F : FTy → Type} [FloatOps F] (main_arg4 : FVec F S500000 .f32) (main_arg5 : FVec F S16000000 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S500000 .f32 := Host.absf main_arg4
  let main_cst_6 : FVec F S_ .f32 := constant S_ .f32 0x7F800000#32
  let main_v20 : FVec F S500000 .f32 := broadcastInDim S500000 ![] bcast_S_S500000 main_cst_6
  let main_v21 : IVec S500000 1 := cmpf .olt main_v19 main_v20
  let main_c_7 : IVec S_ 1 := constantI S_ 1 1#1
  let main_v22 : IVec S_ 1 := (fun x v => Host.reduce IntOp.andi x v reducesTo_S500000_S_d0 h_S_) main_v21 main_c_7
  let main_v23 : IVec S_ 1 := andi main_v18 main_v22
  let main_v24 : FVec F S16000000 .f32 := Host.absf main_arg5
  let main_cst_8 : FVec F S_ .f32 := constant S_ .f32 0x7F800000#32
  let main_v25 : FVec F S16000000 .f32 := broadcastInDim S16000000 ![] bcast_S_S16000000 main_cst_8
  let main_v26 : IVec S16000000 1 := cmpf .olt main_v24 main_v25
  let main_c_9 : IVec S_ 1 := constantI S_ 1 1#1
  let main_v27 : IVec S_ 1 := (fun x v => Host.reduce IntOp.andi x v reducesTo_S16000000_S_d0 h_S_) main_v26 main_c_9
  let main_v28 : IVec S_ 1 := andi main_v23 main_v27
  main_v28

def fn {F : FTy → Type} [FloatOps F] (main_arg0 : FVec F S500000 .f32) (main_arg1 : FVec F S500000 .f32) (main_arg2 : FVec F S500000 .f32) (main_arg3 : FVec F S500000 .f32) (main_arg4 : FVec F S500000 .f32) (main_arg5 : FVec F S16000000 .f32) (main_arg6 : IVec S2x16000000 32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S500000 .f32 := Host.absf main_arg2
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S500000 .f32 := Host.absf main_arg3
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg4 main_arg5 main_v13 main_v16
-- ==== Kernel.lean ====
abbrev S500000 : Shape := ⟨1, ![500000]⟩
abbrev S16000000 : Shape := ⟨1, ![16000000]⟩
abbrev S2x16000000 : Shape := ⟨2, ![2, 16000000]⟩
abbrev S1x16000000 : Shape := ⟨2, ![1, 16000000]⟩
abbrev S_ : Shape := ⟨0, ![]⟩
abbrev S16000000x1 : Shape := ⟨2, ![16000000, 1]⟩
abbrev S125000x128 : Shape := ⟨2, ![125000, 128]⟩
abbrev S5000x128 : Shape := ⟨2, ![5000, 128]⟩
abbrev S500096 : Shape := ⟨1, ![500096]⟩
abbrev S3907x128 : Shape := ⟨2, ![3907, 128]⟩

abbrev nBuf : Space → Nat
  | .hbm => 78
  | .vmem => 12
  | .smem => 0
  | _ => 0

abbrev bufTy : (tb : Table) → Fin (tcTables nBuf tb) → BufTy
  | .hbm, ⟨0, _⟩ => ⟨S500000, .f32⟩
  | .hbm, ⟨1, _⟩ => ⟨S500000, .f32⟩
  | .hbm, ⟨2, _⟩ => ⟨S500000, .f32⟩
  | .hbm, ⟨3, _⟩ => ⟨S500000, .f32⟩
  | .hbm, ⟨4, _⟩ => ⟨S500000, .f32⟩
  | .hbm, ⟨5, _⟩ => ⟨S16000000, .f32⟩
  | .hbm, ⟨6, _⟩ => ⟨S2x16000000, .i32⟩
  | .hbm, ⟨7, _⟩ => ⟨S1x16000000, .i32⟩
  | .hbm, ⟨8, _⟩ => ⟨S16000000, .i32⟩
  | .hbm, ⟨9, _⟩ => ⟨S1x16000000, .i32⟩
  | .hbm, ⟨10, _⟩ => ⟨S16000000, .i32⟩
  | .hbm, ⟨11, _⟩ => ⟨S_, .i32⟩
  | .hbm, ⟨12, _⟩ => ⟨S16000000, .i32⟩
  | .hbm, ⟨13, _⟩ => ⟨S16000000, .i1⟩
  | .hbm, ⟨14, _⟩ => ⟨S_, .i32⟩
  | .hbm, ⟨15, _⟩ => ⟨S16000000, .i32⟩
  | .hbm, ⟨16, _⟩ => ⟨S16000000, .i32⟩
  | .hbm, ⟨17, _⟩ => ⟨S16000000, .i32⟩
  | .hbm, ⟨18, _⟩ => ⟨S16000000x1, .i32⟩
  | .hbm, ⟨19, _⟩ => ⟨S16000000, .f32⟩
  | .hbm, ⟨20, _⟩ => ⟨S_, .i32⟩
  | .hbm, ⟨21, _⟩ => ⟨S16000000, .i32⟩
  | .hbm, ⟨22, _⟩ => ⟨S16000000, .i1⟩
  | .hbm, ⟨23, _⟩ => ⟨S_, .i32⟩
  | .hbm, ⟨24, _⟩ => ⟨S16000000, .i32⟩
  | .hbm, ⟨25, _⟩ => ⟨S16000000, .i32⟩
  | .hbm, ⟨26, _⟩ => ⟨S16000000, .i32⟩
  | .hbm, ⟨27, _⟩ => ⟨S16000000x1, .i32⟩
  | .hbm, ⟨28, _⟩ => ⟨S16000000, .f32⟩
  | .hbm, ⟨29, _⟩ => ⟨S16000000, .f32⟩
  | .hbm, ⟨30, _⟩ => ⟨S125000x128, .f32⟩
  | .hbm, ⟨31, _⟩ => ⟨S125000x128, .f32⟩
  | .hbm, ⟨32, _⟩ => ⟨S125000x128, .f32⟩
  | .hbm, ⟨33, _⟩ => ⟨S16000000, .f32⟩
  | .hbm, ⟨34, _⟩ => ⟨S_, .f32⟩
  | .hbm, ⟨35, _⟩ => ⟨S500000, .f32⟩
  | .hbm, ⟨36, _⟩ => ⟨S_, .i32⟩
  | .hbm, ⟨37, _⟩ => ⟨S16000000, .i32⟩
  | .hbm, ⟨38, _⟩ => ⟨S16000000, .i1⟩
  | .hbm, ⟨39, _⟩ => ⟨S_, .i32⟩
  | .hbm, ⟨40, _⟩ => ⟨S16000000, .i32⟩
  | .hbm, ⟨41, _⟩ => ⟨S16000000, .i32⟩
  | .hbm, ⟨42, _⟩ => ⟨S16000000, .i32⟩
  | .hbm, ⟨43, _⟩ => ⟨S16000000x1, .i32⟩
  | .hbm, ⟨44, _⟩ => ⟨S500000, .f32⟩
  | .hbm, ⟨45, _⟩ => ⟨S16000000, .f32⟩
  | .hbm, ⟨46, _⟩ => ⟨S_, .i32⟩
  | .hbm, ⟨47, _⟩ => ⟨S16000000, .i32⟩
  | .hbm, ⟨48, _⟩ => ⟨S16000000, .i1⟩
  | .hbm, ⟨49, _⟩ => ⟨S_, .i32⟩
  | .hbm, ⟨50, _⟩ => ⟨S16000000, .i32⟩
  | .hbm, ⟨51, _⟩ => ⟨S16000000, .i32⟩
  | .hbm, ⟨52, _⟩ => ⟨S16000000, .i32⟩
  | .hbm, ⟨53, _⟩ => ⟨S16000000x1, .i32⟩
  | .hbm, ⟨54, _⟩ => ⟨S500000, .f32⟩
  | .hbm, ⟨55, _⟩ => ⟨S_, .f32⟩
  | .hbm, ⟨56, _⟩ => ⟨S_, .f32⟩
  | .hbm, ⟨57, _⟩ => ⟨S500096, .f32⟩
  | .hbm, ⟨58, _⟩ => ⟨S3907x128, .f32⟩
  | .hbm, ⟨59, _⟩ => ⟨S_, .f32⟩
  | .hbm, ⟨60, _⟩ => ⟨S_, .f32⟩
  | .hbm, ⟨61, _⟩ => ⟨S500096, .f32⟩
  | .hbm, ⟨62, _⟩ => ⟨S3907x128, .f32⟩
  | .hbm, ⟨63, _⟩ => ⟨S_, .f32⟩
  | .hbm, ⟨64, _⟩ => ⟨S_, .f32⟩
  | .hbm, ⟨65, _⟩ => ⟨S500096, .f32⟩
  | .hbm, ⟨66, _⟩ => ⟨S3907x128, .f32⟩
  | .hbm, ⟨67, _⟩ => ⟨S_, .f32⟩
  | .hbm, ⟨68, _⟩ => ⟨S_, .f32⟩
  | .hbm, ⟨69, _⟩ => ⟨S500096, .f32⟩
  | .hbm, ⟨70, _⟩ => ⟨S3907x128, .f32⟩
  | .hbm, ⟨71, _⟩ => ⟨S_, .f32⟩
  | .hbm, ⟨72, _⟩ => ⟨S_, .f32⟩
  | .hbm, ⟨73, _⟩ => ⟨S500096, .f32⟩
  | .hbm, ⟨74, _⟩ => ⟨S3907x128, .f32⟩
  | .hbm, ⟨75, _⟩ => ⟨S3907x128, .f32⟩
  | .hbm, ⟨76, _⟩ => ⟨S500096, .f32⟩
  | .hbm, ⟨77, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S3907x128, .f32⟩
  | .local _ .vmem, ⟨7, _⟩ => ⟨S3907x128, .f32⟩
  | .local _ .vmem, ⟨8, _⟩ => ⟨S3907x128, .f32⟩
  | .local _ .vmem, ⟨9, _⟩ => ⟨S3907x128, .f32⟩
  | .local _ .vmem, ⟨10, _⟩ => ⟨S3907x128, .f32⟩
  | .local _ .vmem, ⟨11, _⟩ => ⟨S3907x128, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_call0_v0 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_call1_v0 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_call2_v0 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_call3_v0 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_call4_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S3907x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S3907x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3907x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3907x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3907x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3907x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  shapeCasts_S16000000_S125000x128 : S16000000.ShapeCasts S125000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S125000x128_S16000000 : S125000x128.ShapeCasts S16000000
  bcast_S_S500000 : S_.BroadcastsInDim S500000 (![] : Fin 0 → Fin S500000.rank)
  pads_S500000_S500096_0960 : S500000.Pads (![0] : Fin 1 → Nat) ![96] ![0] S500096
  h_S_ : 0 < S_.numel
  shapeCasts_S500096_S3907x128 : S500096.ShapeCasts S3907x128
  inb_S3907x128_S3907x128_0_0 : ∀ a, (![0, 0] : Fin 2 → Nat) a + S3907x128.size a ≤ S3907x128.size a
  h_S3907x128 : 0 < S3907x128.numel
  shapeCasts_S3907x128_S3907x128 : S3907x128.ShapeCasts S3907x128
  shapeCasts_S3907x128_S500096 : S3907x128.ShapeCasts S500096
  slices_S500096_S500000_0 : S500096.Slices ![0] S500000
  gather_S500000_S16000000x1_S16000000_n_0_n_n_0_1_1_wf : GatherDims.WF S500000 S16000000x1 S16000000 [] [0] [] [0] [] 1 ![1]
  scatter_S500000_S16000000x1_S16000000_n_0_0_1_wf : ScatterDims.WF S500000 S16000000x1 S16000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S125000x128.size a
  hwx0_0 : ∀ i : grid0.Coords, EltTy.bits .f32 = 32 ∨ (Rect.block (s := S125000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S125000x128.size a
  hwx0_1 : ∀ i : grid0.Coords, EltTy.bits .f32 = 32 ∨ (Rect.block (s := S125000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S125000x128.size a
  hwx0_2 : ∀ i : grid0.Coords, EltTy.bits .f32 = 32 ∨ (Rect.block (s := S125000x128) S5000x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S3907x128.size a ≤ S3907x128.size a
  hwx1_0 : ∀ i : grid1.Coords, EltTy.bits .f32 = 32 ∨ (Rect.block (s := S3907x128) S3907x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3907x128.size a ≤ S3907x128.size a
  hwx1_1 : ∀ i : grid1.Coords, EltTy.bits .f32 = 32 ∨ (Rect.block (s := S3907x128) S3907x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3907x128.size a ≤ S3907x128.size a
  hwx1_2 : ∀ i : grid1.Coords, EltTy.bits .f32 = 32 ∨ (Rect.block (s := S3907x128) S3907x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3907x128.size a ≤ S3907x128.size a
  hwx1_3 : ∀ i : grid1.Coords, EltTy.bits .f32 = 32 ∨ (Rect.block (s := S3907x128) S3907x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3907x128.size a ≤ S3907x128.size a
  hwx1_4 : ∀ i : grid1.Coords, EltTy.bits .f32 = 32 ∨ (Rect.block (s := S3907x128) S3907x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3907x128.size a ≤ S3907x128.size a
  hwx1_5 : ∀ i : grid1.Coords, EltTy.bits .f32 = 32 ∨ (Rect.block (s := S3907x128) S3907x128.size (cc1_transform_5 i) (hinb1_5 i)).WholeWords (EltTy.packing .f32)

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S3907x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v42) S3907x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S3907x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S3907x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S3907x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S3907x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000 : Shape := ⟨1, ![500000]⟩
abbrev S16000000 : Shape := ⟨1, ![16000000]⟩
abbrev S2x16000000 : Shape := ⟨2, ![2, 16000000]⟩
abbrev S1x16000000 : Shape := ⟨2, ![1, 16000000]⟩
abbrev S_ : Shape := ⟨0, ![]⟩
abbrev S16000000x1 : Shape := ⟨2, ![16000000, 1]⟩

abbrev nBuf : Space → Nat
  | .hbm => 54
  | .vmem => 0
  | .smem => 0
  | _ => 0

abbrev bufTy : (tb : Table) → Fin (tcTables nBuf tb) → BufTy
  | .hbm, ⟨0, _⟩ => ⟨S500000, .f32⟩
  | .hbm, ⟨1, _⟩ => ⟨S500000, .f32⟩
  | .hbm, ⟨2, _⟩ => ⟨S500000, .f32⟩
  | .hbm, ⟨3, _⟩ => ⟨S500000, .f32⟩
  | .hbm, ⟨4, _⟩ => ⟨S500000, .f32⟩
  | .hbm, ⟨5, _⟩ => ⟨S16000000, .f32⟩
  | .hbm, ⟨6, _⟩ => ⟨S2x16000000, .i32⟩
  | .hbm, ⟨7, _⟩ => ⟨S1x16000000, .i32⟩
  | .hbm, ⟨8, _⟩ => ⟨S16000000, .i32⟩
  | .hbm, ⟨9, _⟩ => ⟨S1x16000000, .i32⟩
  | .hbm, ⟨10, _⟩ => ⟨S16000000, .i32⟩
  | .hbm, ⟨11, _⟩ => ⟨S_, .i32⟩
  | .hbm, ⟨12, _⟩ => ⟨S16000000, .i32⟩
  | .hbm, ⟨13, _⟩ => ⟨S16000000, .i1⟩
  | .hbm, ⟨14, _⟩ => ⟨S_, .i32⟩
  | .hbm, ⟨15, _⟩ => ⟨S16000000, .i32⟩
  | .hbm, ⟨16, _⟩ => ⟨S16000000, .i32⟩
  | .hbm, ⟨17, _⟩ => ⟨S16000000, .i32⟩
  | .hbm, ⟨18, _⟩ => ⟨S16000000x1, .i32⟩
  | .hbm, ⟨19, _⟩ => ⟨S16000000, .f32⟩
  | .hbm, ⟨20, _⟩ => ⟨S_, .i32⟩
  | .hbm, ⟨21, _⟩ => ⟨S16000000, .i32⟩
  | .hbm, ⟨22, _⟩ => ⟨S16000000, .i1⟩
  | .hbm, ⟨23, _⟩ => ⟨S_, .i32⟩
  | .hbm, ⟨24, _⟩ => ⟨S16000000, .i32⟩
  | .hbm, ⟨25, _⟩ => ⟨S16000000, .i32⟩
  | .hbm, ⟨26, _⟩ => ⟨S16000000, .i32⟩
  | .hbm, ⟨27, _⟩ => ⟨S16000000x1, .i32⟩
  | .hbm, ⟨28, _⟩ => ⟨S16000000, .f32⟩
  | .hbm, ⟨29, _⟩ => ⟨S16000000, .f32⟩
  | .hbm, ⟨30, _⟩ => ⟨S16000000, .f32⟩
  | .hbm, ⟨31, _⟩ => ⟨S16000000, .f32⟩
  | .hbm, ⟨32, _⟩ => ⟨S500000, .f32⟩
  | .hbm, ⟨33, _⟩ => ⟨S500000, .f32⟩
  | .hbm, ⟨34, _⟩ => ⟨S_, .i32⟩
  | .hbm, ⟨35, _⟩ => ⟨S16000000, .i32⟩
  | .hbm, ⟨36, _⟩ => ⟨S16000000, .i1⟩
  | .hbm, ⟨37, _⟩ => ⟨S_, .i32⟩
  | .hbm, ⟨38, _⟩ => ⟨S16000000, .i32⟩
  | .hbm, ⟨39, _⟩ => ⟨S16000000, .i32⟩
  | .hbm, ⟨40, _⟩ => ⟨S16000000, .i32⟩
  | .hbm, ⟨41, _⟩ => ⟨S16000000x1, .i32⟩
  | .hbm, ⟨42, _⟩ => ⟨S500000, .f32⟩
  | .hbm, ⟨43, _⟩ => ⟨S16000000, .f32⟩
  | .hbm, ⟨44, _⟩ => ⟨S_, .i32⟩
  | .hbm, ⟨45, _⟩ => ⟨S16000000, .i32⟩
  | .hbm, ⟨46, _⟩ => ⟨S16000000, .i1⟩
  | .hbm, ⟨47, _⟩ => ⟨S_, .i32⟩
  | .hbm, ⟨48, _⟩ => ⟨S16000000, .i32⟩
  | .hbm, ⟨49, _⟩ => ⟨S16000000, .i32⟩
  | .hbm, ⟨50, _⟩ => ⟨S16000000, .i32⟩
  | .hbm, ⟨51, _⟩ => ⟨S16000000x1, .i32⟩
  | .hbm, ⟨52, _⟩ => ⟨S500000, .f32⟩
  | .hbm, ⟨53, _⟩ => ⟨S500000, .f32⟩
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  gather_S500000_S16000000x1_S16000000_n_0_n_n_0_1_1_wf : GatherDims.WF S500000 S16000000x1 S16000000 [] [0] [] [0] [] 1 ![1]
  scatter_S500000_S16000000x1_S16000000_n_0_0_1_wf : ScatterDims.WF S500000 S16000000x1 S16000000 [] [0] [0] 1

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

class Facts : Prop extends Facts₀ where

variable [Facts]
-- ==== Proof.KernelRun.lean ====
/-
  The idealized kernel's run with its result named.

  @main is fifteen segments: a stretch of host operations, the first pallas_call, eleven stretches, the second
  pallas_call, a last stretch. The generated frame follows the buffer contents through them as a fold
  (`Gen.W0` … `Gen.W15`) and, at the end, every unscoped buffer holds the last fold's contents. Here that final
  fact is read at the result buffer as well as at the seven argument buffers: every weakly fair execution ends
  with the result at `Gen.W15 m ρ c` of its buffer and the arguments as launched.
-/
import proofs.«148377_j68375879352859_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last fold's
    contents and the seven arguments as launched. -/
theorem run : θ_run defs (onTc (τ := τ) (main (F := F))) ⟨m, fun _ => 0, ρ⟩ (fun r => ∀ c : Dev nD,
      r.2.mem ((c.tc : Thread nD τ).loc main_v51) = W15 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v51 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c)⟩)

end Cert.KernelIdeal.KRun

end
-- ==== Proof.Terms.lean ====
/-
  The host-side pieces of the idealized kernel's program, named once.

  Both pallas_calls sit among host operations: the edge list is cut into its two rows (the nodes an edge leaves and
  enters), negative node numbers are wrapped by the node count, the phases are gathered at both ends of every edge and
  subtracted; after the first pallas_call its per-edge result is accumulated into a zero vector at the first ends and,
  negated, at the second ends; the five node vectors are padded from 500000 to 500096 entries and laid out as
  3907 × 128. Each of these is a definition here, over any float instance, so that the two programs can be compared
  through them without opening them.
-/
import proofs.«148377_j68375879352859_2_alg».proof.KernelIdeal

noncomputable section

namespace Cert.KernelIdeal.Terms

open Cert.KernelIdeal Idealize.ShloMosaic Idealize.SL.Sem
open Facts₀ Facts

variable {F : FTy → Type} [FloatOps F] [Facts]

/-- Row 0 of the edge list (the node each edge leaves), as a flat vector of 16,000,000 node numbers. -/
def rowRaw (e : (⟨S2x16000000, .i32⟩ : BufTy).Contents (Elt F)) : (⟨S16000000, .i32⟩ : BufTy).Contents (Elt F) :=
  shapeCast _ (extractStridedSlice S1x16000000 ![0, 0] e slices_S2x16000000_S1x16000000_0_0) shapeCasts_S1x16000000_S16000000

/-- Row 1 of the edge list (the node each edge enters), as a flat vector. -/
def colRaw (e : (⟨S2x16000000, .i32⟩ : BufTy).Contents (Elt F)) : (⟨S16000000, .i32⟩ : BufTy).Contents (Elt F) :=
  shapeCast _ (extractStridedSlice S1x16000000 ![1, 0] e slices_S2x16000000_S1x16000000_1_0) shapeCasts_S1x16000000_S16000000

/-- A vector of node numbers with the negative ones moved up by the node count, as a column of one-entry index
    vectors (the form a gather or a scatter takes its indices in). -/
def wrapped (raw : (⟨S16000000, .i32⟩ : BufTy).Contents (Elt F)) : (⟨S16000000x1, .i32⟩ : BufTy).Contents (Elt F) :=
  broadcastInDim S16000000x1 ![0] bcast_S16000000_S16000000x1_0
    (select (cmpi .slt raw (broadcastInDim S16000000 ![] bcast_S_S16000000 (constantI S_ 32 0#32)))
      (addi raw (broadcastInDim S16000000 ![] bcast_S_S16000000 (constantI S_ 32 500000#32))) raw)

/-- Per edge: the phase at the node it enters minus the phase at the node it leaves. -/
def phaseDiff (phase : (⟨S500000, .f32⟩ : BufTy).Contents (Elt F)) (e : (⟨S2x16000000, .i32⟩ : BufTy).Contents (Elt F)) :
    (⟨S16000000, .f32⟩ : BufTy).Contents (Elt F) :=
  subf (Host.gather gather_S500000_S16000000x1_S16000000_n_0_n_n_0_1_1 phase (wrapped (colRaw e)))
    (Host.gather gather_S500000_S16000000x1_S16000000_n_0_n_n_0_1_1 phase (wrapped (rowRaw e)))

/-- The zero vector over the nodes. -/
def zeros : (⟨S500000, .f32⟩ : BufTy).Contents (Elt F) :=
  broadcastInDim S500000 ![] bcast_S_S500000 (constant S_ .f32 0x00000000#32)

/-- A per-edge vector accumulated over the nodes from a start vector: added at the node each edge leaves (`row`),
    subtracted at the node it enters (`col`). -/
def accumulate (start : (⟨S500000, .f32⟩ : BufTy).Contents (Elt F)) (row col : (⟨S16000000, .i32⟩ : BufTy).Contents (Elt F))
    (perEdge : (⟨S16000000, .f32⟩ : BufTy).Contents (Elt F)) : (⟨S500000, .f32⟩ : BufTy).Contents (Elt F) :=
  Host.scatterAdd scatter_S500000_S16000000x1_S16000000_n_0_0_1
    (Host.scatterAdd scatter_S500000_S16000000x1_S16000000_n_0_0_1 start (wrapped row) perEdge)
    (wrapped col) (Host.negf perEdge)

/-- A node vector padded with a value to 500096 entries and laid out as 3907 rows of 128. -/
def padded (x : (⟨S500000, .f32⟩ : BufTy).Contents (Elt F)) (v : (⟨S_, .f32⟩ : BufTy).Contents (Elt F)) :
    (⟨S3907x128, .f32⟩ : BufTy).Contents (Elt F) :=
  shapeCast _ (pad S500096 ![0] ![96] ![0] x v pads_S500000_S500096_0960 h_S_) shapeCasts_S500096_S3907x128

/-- The first 500000 entries of a 3907 × 128 layout read back as a flat vector. -/
def unpadded (y : (⟨S3907x128, .f32⟩ : BufTy).Contents (Elt F)) : (⟨S500000, .f32⟩ : BufTy).Contents (Elt F) :=
  extractStridedSlice S500000 ![0] (shapeCast _ y shapeCasts_S3907x128_S500096) slices_S500096_S500000_0

end Cert.KernelIdeal.Terms

end
-- ==== Proof.Interaction.lean ====
/-
  The first pallas_call, read as one whole-array function.

  Its operands are the phase differences and the couplings of the 16,000,000 edges, each laid out as 125000 rows of
  128 lanes; the grid has 25 points and point `t` works on rows 5000·t … 5000·t + 4999 of every operand. The body
  multiplies the coupling by the sine of the phase difference, entry by entry. So what point `t` writes back is block
  `t` of the array `coupling · sin (difference)`, the 25 blocks tile the result, and after the region the result array
  IS that array — whatever the operand arrays hold when the region is entered (the parameter `V`).
-/
import proofs.«148377_j68375879352859_2_alg».proof.Proof.Gen.KernelIdeal.Frame
import Idealize.ShloMosaic.Lib.Pipeline.Value

set_option maxRecDepth 16384

noncomputable section

namespace Cert.KernelIdeal.Interaction

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- Coupling times the sine of the phase difference, entry by entry, over the 125000 × 128 layout of the edges. -/
def edgeTerm (diff coupling : S125000x128.Idx → Elt F .f32) : S125000x128.Idx → Elt F .f32 :=
  fun i => FloatOps.mulf (coupling i) (FloatOps.sin (diff i))

/-- The body's stored value: the two shape casts are to the block's own shape, so it is the product of the coupling
    block with the sine of the difference block. -/
theorem stored_eq (k d : Vec F S5000x128 .f32) : k0_pay1 k d = mulf k (sin d) := by
  unfold k0_pay1
  simp only [shapeCast_self]

/-- The printed index maps over the 25 points: every window is at block row `t`, block column 0. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 24 ∧ win0_2.index t (1 : Fin 2) = 0 :=
  (by decide +kernel : ∀ t : Fin grid0.N, _)

/-- Every block row is some point's. -/
theorem index_onto : ∀ q : Fin 25, ∃ t : Fin cfg0.N, win0_2.index t = ![q.val, 0] :=
  (by decide +kernel : ∀ q : Fin 25, ∃ t : Fin grid0.N, win0_2.index t = ![q.val, 0])

/-- What point `t` writes back is block `t` of `edgeTerm` of the two operand arrays as the region finds them. -/
theorem flushed_eq (c : Dev nD) (t : Fin cfg0.N) :
    (dat0 V c).flushed 2 t = ((cfg0.win 2).blk t).view.read (Elt F) (edgeTerm (V c main_v19) (V c main_v20)) := by
  show (cfg0.win 2).cut (grid0.coords t) ((dat0 V c).after 2 t) = _
  rw [after0_2]
  unfold out0_2
  rw [View.canon_unit_zero origin]
  simp only [View.ld_unit_zero (S := S5000x128) origin]
  rw [stored_eq]
  obtain ⟨e0, e1, e2, e3, e4, e5⟩ := index_facts t
  funext j
  show FloatOps.mulf (V c main_v20 (((cfg0.win 1).blk t).view.emb j)) (FloatOps.sin (V c main_v19 (((cfg0.win 0).blk t).view.emb j)))
    = FloatOps.mulf (V c main_v20 (((cfg0.win 2).blk t).view.emb j)) (FloatOps.sin (V c main_v19 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 128 + 1 * (j 1).val = win0_2.index t (1 : Fin 2) * 128 + 1 * (j 1).val; omega
  rw [h0, h1]

/-- An index of the result array is in point `t`'s block iff each coordinate is in the block's range on its axis. -/
theorem mem_block (t : Fin cfg0.N) (i : S125000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v21).slice (win0_2.rect t)).set ↔ _
  rw [View.set_slice_whole, Rect.mem_set_unit]
  exact Iff.rfl

/-- Row `r` of the result lies in the block of the point at block row `r / 5000`. -/
theorem covered (i : S125000x128.Idx) :
    ∃ t : Fin cfg0.N, (cfg0.win 2).flush t = true ∧ i ∈ ((cfg0.win 2).blk t).view.set := by
  have hi0 : (i 0).val < 125000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: coupling · sin (difference) of the operand arrays at entry, everywhere. -/
theorem result (c : Dev nD) :
    (dat0 V c).arrAt 2 cfg0.N = edgeTerm (V c main_v19) (V c main_v20) :=
  (dat0 V c).arrAt_eq_of_cover 2 (edgeTerm (V c main_v19) (V c main_v20)) (fun t _ => flushed_eq V c t) covered

end Cert.KernelIdeal.Interaction

end
-- ==== Proof.Combine.lean ====
/-
  The second pallas_call, read as one whole-array function.

  Its five operands — power, phase velocity, damping, mass and the accumulated interaction of each node — are laid out
  as 3907 rows of 128 lanes (500096 entries: the 500000 nodes and 96 entries of padding). The grid has one point and
  every window's block is its whole array. The body computes, entry by entry,
  (power − damping · velocity + accumulated) / mass. So after the region the result array is that expression of the
  operand arrays as the region finds them (the parameter `V`).
-/
import proofs.«148377_j68375879352859_2_alg».proof.Proof.Gen.KernelIdeal.Frame
import Idealize.ShloMosaic.Lib.Pipeline.Value

set_option maxRecDepth 16384

noncomputable section

namespace Cert.KernelIdeal.Combine

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- (power − damping · velocity + accumulated) / mass, entry by entry, over the 3907 × 128 layout of the nodes. -/
def accel (power velocity damping mass acc : S3907x128.Idx → Elt F .f32) : S3907x128.Idx → Elt F .f32 :=
  fun i => FloatOps.divf (FloatOps.addf (FloatOps.subf (power i) (FloatOps.mulf (damping i) (velocity i))) (acc i)) (mass i)

/-- The body's stored value: every shape cast is to the block's own shape. -/
theorem stored_eq (p g d a ms : Vec F S3907x128 .f32) :
    k1_pay1 p g d a ms = divf (addf (subf p (mulf g d)) a) ms := by
  unfold k1_pay1
  simp only [shapeCast_self]

/-- The printed index maps at the one point: every window is at block (0, 0). -/
theorem index_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- What the one point writes back is the whole of `accel` of the five operand arrays as the region finds them. -/
theorem flushed_eq (c : Dev nD) (t : Fin cfg1.N) :
    (dat1 V c).flushed 5 t = ((cfg1.win 5).blk t).view.read (Elt F)
      (accel (V c main_v40) (V c main_v42) (V c main_v44) (V c main_v46) (V c main_v48)) := by
  show (cfg1.win 5).cut (grid1.coords t) ((dat1 V c).after 5 t) = _
  rw [after1_5]
  unfold out1_5
  rw [View.canon_unit_zero origin]
  simp only [View.ld_unit_zero (S := S3907x128) origin]
  rw [stored_eq]
  obtain ⟨a0, a1, b0, b1, c0, c1, d0, d1, e0, e1, f0, f1⟩ := index_facts t
  funext j
  show FloatOps.divf (FloatOps.addf (FloatOps.subf (V c main_v40 (((cfg1.win 0).blk t).view.emb j))
        (FloatOps.mulf (V c main_v44 (((cfg1.win 2).blk t).view.emb j)) (V c main_v42 (((cfg1.win 1).blk t).view.emb j))))
        (V c main_v48 (((cfg1.win 4).blk t).view.emb j))) (V c main_v46 (((cfg1.win 3).blk t).view.emb j))
    = FloatOps.divf (FloatOps.addf (FloatOps.subf (V c main_v40 (((cfg1.win 5).blk t).view.emb j))
        (FloatOps.mulf (V c main_v44 (((cfg1.win 5).blk t).view.emb j)) (V c main_v42 (((cfg1.win 5).blk t).view.emb j))))
        (V c main_v48 (((cfg1.win 5).blk t).view.emb j))) (V c main_v46 (((cfg1.win 5).blk t).view.emb j))
  have h0 : ((cfg1.win 0).blk t).view.emb j = ((cfg1.win 5).blk t).view.emb j := by
    funext a; apply Fin.ext
    match a with
    | ⟨0, _⟩ => show win1_0.index t (0 : Fin 2) * 3907 + 1 * (j 0).val = win1_5.index t (0 : Fin 2) * 3907 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb j = ((cfg1.win 5).blk t).view.emb j := by
    funext a; apply Fin.ext
    match a with
    | ⟨0, _⟩ => show win1_1.index t (0 : Fin 2) * 3907 + 1 * (j 0).val = win1_5.index t (0 : Fin 2) * 3907 + 1 * (j 0).val; omega
    | ⟨1, _⟩ => show win1_1.index t (1 : Fin 2) * 128 + 1 * (j 1).val = win1_5.index t (1 : Fin 2) * 128 + 1 * (j 1).val; omega
  have h2 : ((cfg1.win 2).blk t).view.emb j = ((cfg1.win 5).blk t).view.emb j := by
    funext a; apply Fin.ext
    match a with
    | ⟨0, _⟩ => show win1_2.index t (0 : Fin 2) * 3907 + 1 * (j 0).val = win1_5.index t (0 : Fin 2) * 3907 + 1 * (j 0).val; omega
    | ⟨1, _⟩ => show win1_2.index t (1 : Fin 2) * 128 + 1 * (j 1).val = win1_5.index t (1 : Fin 2) * 128 + 1 * (j 1).val; omega
  have h3 : ((cfg1.win 3).blk t).view.emb j = ((cfg1.win 5).blk t).view.emb j := by
    funext a; apply Fin.ext
    match a with
    | ⟨0, _⟩ => show win1_3.index t (0 : Fin 2) * 3907 + 1 * (j 0).val = win1_5.index t (0 : Fin 2) * 3907 + 1 * (j 0).val; omega
    | ⟨1, _⟩ => show win1_3.index t (1 : Fin 2) * 128 + 1 * (j 1).val = win1_5.index t (1 : Fin 2) * 128 + 1 * (j 1).val; omega
  have h4 : ((cfg1.win 4).blk t).view.emb j = ((cfg1.win 5).blk t).view.emb j := by
    funext a; apply Fin.ext
    match a with
    | ⟨0, _⟩ => show win1_4.index t (0 : Fin 2) * 3907 + 1 * (j 0).val = win1_5.index t (0 : Fin 2) * 3907 + 1 * (j 0).val; omega
    | ⟨1, _⟩ => show win1_4.index t (1 : Fin 2) * 128 + 1 * (j 1).val = win1_5.index t (1 : Fin 2) * 128 + 1 * (j 1).val; omega
  rw [h0, h1, h2, h3, h4]

/-- An index of the result array is in the point's block iff each coordinate is in the block's range on its axis. -/
theorem mem_block (t : Fin cfg1.N) (i : S3907x128.Idx) :
    i ∈ ((cfg1.win 5).blk t).view.set ↔ ∀ a : Fin 2, win1_5.index t a * S3907x128.size a ≤ (i a).val ∧ (i a).val < win1_5.index t a * S3907x128.size a + S3907x128.size a := by
  show i ∈ ((View.whole main_v49).slice (win1_5.rect t)).set ↔ _
  rw [View.set_slice_whole, Rect.mem_set_unit]
  exact Iff.rfl

/-- The one block is the whole array. -/
theorem covered (i : S3907x128.Idx) :
    ∃ t : Fin cfg1.N, (cfg1.win 5).flush t = true ∧ i ∈ ((cfg1.win 5).blk t).view.set := by
  have hi0 : (i 0).val < 3907 := (i 0).isLt
  have hi1 : (i 1).val < 128 := (i 1).isLt
  obtain ⟨a0, a1, b0, b1, c0, c1, d0, d1, e0, e1, f0, f1⟩ := index_facts t1_0
  refine ⟨t1_0, flush1_5 t1_0, ?_⟩
  rw [mem_block]
  intro a
  match a with
  | ⟨0, _⟩ => show win1_5.index t1_0 (0 : Fin 2) * 3907 ≤ (i 0).val ∧ (i 0).val < win1_5.index t1_0 (0 : Fin 2) * 3907 + 3907; omega
  | ⟨1, _⟩ => show win1_5.index t1_0 (1 : Fin 2) * 128 ≤ (i 1).val ∧ (i 1).val < win1_5.index t1_0 (1 : Fin 2) * 128 + 128; omega

/-- The result array after the region: `accel` of the operand arrays at entry, everywhere. -/
theorem result (c : Dev nD) :
    (dat1 V c).arrAt 5 cfg1.N = accel (V c main_v40) (V c main_v42) (V c main_v44) (V c main_v46) (V c main_v48) :=
  (dat1 V c).arrAt_eq_of_cover 5 _ (fun t _ => flushed_eq V c t) covered

end Cert.KernelIdeal.Combine

end
-- ==== Proof.Stages.lean ====
/-
  What the buffers hold at the boundaries of the idealized kernel's run.

  The generated frame names the buffer contents after each stretch of host operations and after each pallas_call
  (`Gen.W0` … `Gen.W15`). Here the buffers that matter are read, stretch by stretch, as the named host-side terms
  (Terms.lean) of the launch contents: the operands of the first pallas_call, the accumulated per-node vector, the five
  padded operands of the second pallas_call, and the result.
-/
import proofs.«148377_j68375879352859_2_alg».proof.Proof.Gen.KernelIdeal.Frame
import proofs.«148377_j68375879352859_2_alg».proof.Proof.Terms
import proofs.«148377_j68375879352859_2_alg».proof.Proof.Interaction
import proofs.«148377_j68375879352859_2_alg».proof.Proof.Combine
import Idealize.ShloMosaic.Lib.StableHlo.Run

set_option maxRecDepth 16384

noncomputable section

namespace Cert.KernelIdeal.Stages

open Cert.KernelIdeal Cert.KernelIdeal.Gen Cert.KernelIdeal.Terms
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first pallas_call: its two operands, and the two rows of the edge list -/

theorem entry_diff (c : Dev nD) :
    W1 m ρ c (Proc.devRef .tc main_v19)
      = shapeCast _ (phaseDiff (m ((c : Thread nD τ).loc main_arg0)) (m ((c : Thread nD τ).loc main_arg6))) shapeCasts_S16000000_S125000x128 := by
  show StableHlo.after hostOps0 (W0 m ρ c) (Proc.devRef .tc main_v19) = _
  after_results_simp
  rfl

theorem entry_coupling (c : Dev nD) :
    W1 m ρ c (Proc.devRef .tc main_v20)
      = shapeCast _ (m ((c : Thread nD τ).loc main_arg5)) shapeCasts_S16000000_S125000x128 := by
  show StableHlo.after hostOps0 (W0 m ρ c) (Proc.devRef .tc main_v20) = _
  after_results_simp
  rfl

theorem entry_row (c : Dev nD) : W1 m ρ c (Proc.devRef .tc main_v1) = rowRaw (m ((c : Thread nD τ).loc main_arg6)) := by
  show StableHlo.after hostOps0 (W0 m ρ c) (Proc.devRef .tc main_v1) = _
  after_results_simp
  rfl

theorem entry_col (c : Dev nD) : W1 m ρ c (Proc.devRef .tc main_v3) = colRaw (m ((c : Thread nD τ).loc main_arg6)) := by
  show StableHlo.after hostOps0 (W0 m ρ c) (Proc.devRef .tc main_v3) = _
  after_results_simp
  rfl

/-- No host operation before the first pallas_call writes an argument. -/
theorem entry_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem entry_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem entry_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem entry_arg4 (c : Dev nD) : W1 m ρ c (Proc.devRef .tc main_arg4) = m ((c : Thread nD τ).loc main_arg4) := by
  show StableHlo.after hostOps0 (W0 m ρ c) (Proc.devRef .tc main_arg4) = _
  after_results_simp <;> rfl

/-! ## After the first pallas_call -/

/-- Its result array is coupling · sin (difference) of its operand arrays. -/
theorem edge_result (c : Dev nD) :
    W2 m ρ c (Proc.devRef .tc main_v21)
      = Interaction.edgeTerm (W1 m ρ c (Proc.devRef .tc main_v19)) (W1 m ρ c (Proc.devRef .tc main_v20)) :=
  (W2_arr m ρ c 2).trans (Interaction.result (V1 m ρ) c)

/-- It writes neither the rows of the edge list nor an argument. -/
theorem exit_row (c : Dev nD) : W2 m ρ c (Proc.devRef .tc main_v1) = rowRaw (m ((c : Thread nD τ).loc main_arg6)) :=
  (W2_of_ne m ρ c main_v1 (by decide)).trans (entry_row m ρ c)
theorem exit_col (c : Dev nD) : W2 m ρ c (Proc.devRef .tc main_v3) = colRaw (m ((c : Thread nD τ).loc main_arg6)) :=
  (W2_of_ne m ρ c main_v3 (by decide)).trans (entry_col m ρ c)
theorem exit_arg1 (c : Dev nD) : W2 m ρ c (Proc.devRef .tc main_arg1) = m ((c : Thread nD τ).loc main_arg1) :=
  (W2_of_ne m ρ c main_arg1 (by decide)).trans (entry_arg1 m ρ c)
theorem exit_arg2 (c : Dev nD) : W2 m ρ c (Proc.devRef .tc main_arg2) = m ((c : Thread nD τ).loc main_arg2) :=
  (W2_of_ne m ρ c main_arg2 (by decide)).trans (entry_arg2 m ρ c)
theorem exit_arg3 (c : Dev nD) : W2 m ρ c (Proc.devRef .tc main_arg3) = m ((c : Thread nD τ).loc main_arg3) :=
  (W2_of_ne m ρ c main_arg3 (by decide)).trans (entry_arg3 m ρ c)
theorem exit_arg4 (c : Dev nD) : W2 m ρ c (Proc.devRef .tc main_arg4) = m ((c : Thread nD τ).loc main_arg4) :=
  (W2_of_ne m ρ c main_arg4 (by decide)).trans (entry_arg4 m ρ c)

/-! ## Between the two pallas_calls: the five operands of the second one -/

theorem mid_power (c : Dev nD) :
    W13 m ρ c (Proc.devRef .tc main_v40) = padded (W2 m ρ c (Proc.devRef .tc main_arg2)) (constant S_ .f32 0x00000000#32) := by
  show StableHlo.after hostOps1_10 (StableHlo.after hostOps1_9 (StableHlo.after hostOps1_8 (StableHlo.after hostOps1_7 (StableHlo.after hostOps1_6
    (StableHlo.after hostOps1_5 (StableHlo.after hostOps1_4 (StableHlo.after hostOps1_3 (StableHlo.after hostOps1_2 (StableHlo.after hostOps1_1
    (StableHlo.after hostOps1 (W2 m ρ c))))))))))) (Proc.devRef .tc main_v40) = _
  after_results_simp
  rfl

theorem mid_velocity (c : Dev nD) :
    W13 m ρ c (Proc.devRef .tc main_v42) = padded (W2 m ρ c (Proc.devRef .tc main_arg1)) (constant S_ .f32 0x00000000#32) := by
  show StableHlo.after hostOps1_10 (StableHlo.after hostOps1_9 (StableHlo.after hostOps1_8 (StableHlo.after hostOps1_7 (StableHlo.after hostOps1_6
    (StableHlo.after hostOps1_5 (StableHlo.after hostOps1_4 (StableHlo.after hostOps1_3 (StableHlo.after hostOps1_2 (StableHlo.after hostOps1_1
    (StableHlo.after hostOps1 (W2 m ρ c))))))))))) (Proc.devRef .tc main_v42) = _
  after_results_simp
  rfl

theorem mid_damping (c : Dev nD) :
    W13 m ρ c (Proc.devRef .tc main_v44) = padded (W2 m ρ c (Proc.devRef .tc main_arg4)) (constant S_ .f32 0x00000000#32) := by
  show StableHlo.after hostOps1_10 (StableHlo.after hostOps1_9 (StableHlo.after hostOps1_8 (StableHlo.after hostOps1_7 (StableHlo.after hostOps1_6
    (StableHlo.after hostOps1_5 (StableHlo.after hostOps1_4 (StableHlo.after hostOps1_3 (StableHlo.after hostOps1_2 (StableHlo.after hostOps1_1
    (StableHlo.after hostOps1 (W2 m ρ c))))))))))) (Proc.devRef .tc main_v44) = _
  after_results_simp
  rfl

theorem mid_mass (c : Dev nD) :
    W13 m ρ c (Proc.devRef .tc main_v46) = padded (W2 m ρ c (Proc.devRef .tc main_arg3)) (constant S_ .f32 0x3F800000#32) := by
  show StableHlo.after hostOps1_10 (StableHlo.after hostOps1_9 (StableHlo.after hostOps1_8 (StableHlo.after hostOps1_7 (StableHlo.after hostOps1_6
    (StableHlo.after hostOps1_5 (StableHlo.after hostOps1_4 (StableHlo.after hostOps1_3 (StableHlo.after hostOps1_2 (StableHlo.after hostOps1_1
    (StableHlo.after hostOps1 (W2 m ρ c))))))))))) (Proc.devRef .tc main_v46) = _
  after_results_simp
  rfl

theorem mid_acc (c : Dev nD) :
    W13 m ρ c (Proc.devRef .tc main_v48)
      = padded (accumulate zeros (W2 m ρ c (Proc.devRef .tc main_v1)) (W2 m ρ c (Proc.devRef .tc main_v3))
          (shapeCast _ (W2 m ρ c (Proc.devRef .tc main_v21)) shapeCasts_S125000x128_S16000000)) (constant S_ .f32 0x00000000#32) := by
  show StableHlo.after hostOps1_10 (StableHlo.after hostOps1_9 (StableHlo.after hostOps1_8 (StableHlo.after hostOps1_7 (StableHlo.after hostOps1_6
    (StableHlo.after hostOps1_5 (StableHlo.after hostOps1_4 (StableHlo.after hostOps1_3 (StableHlo.after hostOps1_2 (StableHlo.after hostOps1_1
    (StableHlo.after hostOps1 (W2 m ρ c))))))))))) (Proc.devRef .tc main_v48) = _
  after_results_simp
  rfl

/-! ## The second pallas_call, and the host operations after it -/

/-- Its result array is (power − damping · velocity + accumulated) / mass of its operand arrays. -/
theorem combine_result (c : Dev nD) :
    W14 m ρ c (Proc.devRef .tc main_v49)
      = Combine.accel (W13 m ρ c (Proc.devRef .tc main_v40)) (W13 m ρ c (Proc.devRef .tc main_v42)) (W13 m ρ c (Proc.devRef .tc main_v44))
          (W13 m ρ c (Proc.devRef .tc main_v46)) (W13 m ρ c (Proc.devRef .tc main_v48)) :=
  (W14_arr m ρ c 5).trans (Combine.result (V13 m ρ) c)

/-- The program's result: that array flat again, cut back to the 500000 nodes. -/
theorem tail_result (c : Dev nD) :
    W15 m ρ c (Proc.devRef .tc main_v51) = unpadded (W14 m ρ c (Proc.devRef .tc main_v49)) := by
  show StableHlo.after hostOps2 (W14 m ρ c) (Proc.devRef .tc main_v51) = _
  after_results_simp
  rfl

end Cert.KernelIdeal.Stages

end
-- ==== Proof.KernelValue.lean ====
/-
  The idealized kernel's result as one function of its seven arguments.

  Following the buffers through the run (Stages.lean): the result is the first 500000 entries of the second
  pallas_call's result, whose operands are the padded power, velocity, damping and mass vectors and the padded
  accumulation, over the edges, of the first pallas_call's result read back flat. Read at a node `n`, the reshapes there
  and back cancel, the padding lies beyond the 500000 nodes, and what is left is
  (power n − damping n · velocity n + accumulated n) / mass n, where the accumulated vector starts from zeros and the
  per-edge vector is coupling · sin (phase difference).
-/
import proofs.«148377_j68375879352859_2_alg».proof.Proof.Stages
import Idealize.ShloMosaic.Lib.Pipeline.Value
import Idealize.ShloMosaic.Lib.KernelVsHost
import Idealize.ShloMosaic.Lib.ValueIdx

set_option maxRecDepth 16384

noncomputable section

namespace Cert.KernelIdeal.Whole

open Cert.KernelIdeal Cert.KernelIdeal.Gen Cert.KernelIdeal.Terms Cert.KernelIdeal.Stages
open Idealize.ShloMosaic Idealize.ShloMosaic.TcCoe Idealize.SL.Sem Idealize.ShloMosaic.ValueIdx

variable {F : FTy → Type} [FloatOps F]

/-- Per edge: the coupling times the sine of the phase difference across the edge. -/
def perEdge (phase : (⟨S500000, .f32⟩ : BufTy).Contents (Elt F)) (coupling : (⟨S16000000, .f32⟩ : BufTy).Contents (Elt F))
    (edges : (⟨S2x16000000, .i32⟩ : BufTy).Contents (Elt F)) : (⟨S16000000, .f32⟩ : BufTy).Contents (Elt F) :=
  fun j => FloatOps.mulf (coupling j) (FloatOps.sin (phaseDiff phase edges j))

/-- The program's result, as the operations leave it, of the seven arguments in @main's order. -/
def kernelValue (phase velocity power mass damping : (⟨S500000, .f32⟩ : BufTy).Contents (Elt F))
    (coupling : (⟨S16000000, .f32⟩ : BufTy).Contents (Elt F)) (edges : (⟨S2x16000000, .i32⟩ : BufTy).Contents (Elt F)) :
    (⟨S500000, .f32⟩ : BufTy).Contents (Elt F) :=
  unpadded (Combine.accel (padded power (constant S_ .f32 0x00000000#32)) (padded velocity (constant S_ .f32 0x00000000#32))
    (padded damping (constant S_ .f32 0x00000000#32)) (padded mass (constant S_ .f32 0x3F800000#32))
    (padded (accumulate zeros (rowRaw edges) (colRaw edges)
      (shapeCast _ (Interaction.edgeTerm (shapeCast _ (phaseDiff phase edges) shapeCasts_S16000000_S125000x128)
        (shapeCast _ coupling shapeCasts_S16000000_S125000x128)) shapeCasts_S125000x128_S16000000)) (constant S_ .f32 0x00000000#32)))

/-- The last fold's contents of the result buffer are `kernelValue` of the launch contents of the arguments. -/
theorem result_eq (m : (ℓ : Loc nD τ sig) → Buf (Elt F) ℓ) (ρ : Dev nD → PrngReg) (c : Dev nD) :
    W15 m ρ c (Proc.devRef .tc main_v51)
      = kernelValue (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [tail_result, combine_result, mid_power, mid_velocity, mid_damping, mid_mass, mid_acc, exit_arg1, exit_arg2, exit_arg3,
    exit_arg4, exit_row, exit_col, edge_result, entry_diff, entry_coupling]
  rfl

/-- The first pallas_call's result read back flat: the two reshapes of each operand and the reshape of the result
    cancel, entry by entry. -/
theorem edge_flat (phase : (⟨S500000, .f32⟩ : BufTy).Contents (Elt F)) (coupling : (⟨S16000000, .f32⟩ : BufTy).Contents (Elt F))
    (edges : (⟨S2x16000000, .i32⟩ : BufTy).Contents (Elt F)) :
    shapeCast _ (Interaction.edgeTerm (shapeCast _ (phaseDiff phase edges) shapeCasts_S16000000_S125000x128)
        (shapeCast _ coupling shapeCasts_S16000000_S125000x128)) shapeCasts_S125000x128_S16000000
      = perEdge phase coupling edges := by
  funext j
  show FloatOps.mulf (shapeCast S16000000 (shapeCast S125000x128 coupling shapeCasts_S16000000_S125000x128) shapeCasts_S125000x128_S16000000 j)
      (FloatOps.sin (shapeCast S16000000 (shapeCast S125000x128 (phaseDiff phase edges) shapeCasts_S16000000_S125000x128) shapeCasts_S125000x128_S16000000 j)) = _
  rw [shapeCast_shapeCast, shapeCast_shapeCast]
  rfl

/-- A padded node vector in its 3907 × 128 layout, read where the flat position `k < 500000` sits, is the vector at `k`. -/
theorem padded_read (x : (⟨S500000, .f32⟩ : BufTy).Contents (Elt F)) (v : (⟨S_, .f32⟩ : BufTy).Contents (Elt F)) (k : Fin 500000) :
    padded x v (Shape.reshapeEquiv shapeCasts_S3907x128_S500096 (ix1 (⟨k.val, by omega⟩ : Fin 500096))) = x (ix1 k) := by
  show shapeCast S500096 (shapeCast S3907x128 (pad S500096 ![0] ![96] ![0] x v pads_S500000_S500096_0960 h_S_) shapeCasts_S500096_S3907x128)
      shapeCasts_S3907x128_S500096 (ix1 (⟨k.val, by omega⟩ : Fin 500096)) = _
  rw [shapeCast_shapeCast]
  refine pad_apply_of_inside ![0] ![96] ![0] x v pads_S500000_S500096_0960 h_S_ _ (ix1 k) fun a => ?_
  have ha : a = 0 := Subsingleton.elim _ _
  subst ha
  show k.val = 0 + k.val * (0 + 1)
  omega

/-- The result at node `k`. -/
theorem kernelValue_apply (phase velocity power mass damping : (⟨S500000, .f32⟩ : BufTy).Contents (Elt F))
    (coupling : (⟨S16000000, .f32⟩ : BufTy).Contents (Elt F)) (edges : (⟨S2x16000000, .i32⟩ : BufTy).Contents (Elt F)) (k : Fin 500000) :
    kernelValue phase velocity power mass damping coupling edges (ix1 k)
      = FloatOps.divf (FloatOps.addf (FloatOps.subf (power (ix1 k)) (FloatOps.mulf (damping (ix1 k)) (velocity (ix1 k))))
          (accumulate zeros (rowRaw edges) (colRaw edges) (perEdge phase coupling edges) (ix1 k))) (mass (ix1 k)) := by
  unfold kernelValue unpadded
  rw [edge_flat]
  refine (extractStridedSlice_apply ![0] _ slices_S500096_S500000_0 (ix1 k) (ix1 (⟨k.val, by omega⟩ : Fin 500096)) fun a => ?_).trans ?_
  · have ha : a = 0 := Subsingleton.elim _ _
    subst ha
    show k.val = 0 + k.val
    omega
  · show FloatOps.divf (FloatOps.addf (FloatOps.subf (padded power _ (Shape.reshapeEquiv shapeCasts_S3907x128_S500096 _))
        (FloatOps.mulf (padded damping _ (Shape.reshapeEquiv shapeCasts_S3907x128_S500096 _)) (padded velocity _ (Shape.reshapeEquiv shapeCasts_S3907x128_S500096 _))))
        (padded _ _ (Shape.reshapeEquiv shapeCasts_S3907x128_S500096 _))) (padded mass _ (Shape.reshapeEquiv shapeCasts_S3907x128_S500096 _)) = _
    rw [padded_read, padded_read, padded_read, padded_read, padded_read]

end Cert.KernelIdeal.Whole

end
-- ==== Proof.LibScatterAddFromZero.lean ====
/-
  Host scatter-adds at the extended reals, started from zero or from a vector.

  At the exact values a host scatter with an `add` body (jax's `x.at[idx].add(u)`) holds, at each element, the start
  value plus the sum of the updates that land there. Addition of extended reals is associative and commutative (also
  at the infinities), so accumulating into a ZERO vector and adding the result to a vector `base` afterwards is the same
  as accumulating into `base` itself — for one scatter-add and for two chained ones (the second taking the first's
  result as its start), whatever the dimension numbers, the index arrays and the updates.
-/
import Idealize.ShloMosaic.PureOps.Ideal
import Idealize.ShloMosaic.PureOps.Contract

noncomputable section

namespace Idealize.ShloMosaic.ScatterAddFromZero

open Idealize.ShloMosaic

variable {s si su si' su' : Shape} {w w' : Nat} {φ : FTy}

/-- One scatter-add: into `base` it is `base` plus the scatter-add into a vector `z` of zeros. -/
theorem add_scatterAdd (d : ScatterDims s si su) (base z : FVec Ideal s φ) (hz : ∀ i, z i = 0)
    (idx : IVec si w) (u : FVec Ideal su φ) (i : s.Idx) :
    base i + Host.scatterAdd d z idx u i = Host.scatterAdd d base idx u i := by
  show base i + Ideal.hostScatterAdd d z idx u i = Ideal.hostScatterAdd d base idx u i
  unfold Ideal.hostScatterAdd
  rw [hz, zero_add]

/-- Two chained scatter-adds: started from `base` they give `base` plus what they give started from zeros. -/
theorem add_scatterAdd_scatterAdd (d : ScatterDims s si su) (d' : ScatterDims s si' su') (base z : FVec Ideal s φ)
    (hz : ∀ i, z i = 0) (idx : IVec si w) (u : FVec Ideal su φ) (idx' : IVec si' w') (u' : FVec Ideal su' φ) (i : s.Idx) :
    base i + Host.scatterAdd d' (Host.scatterAdd d z idx u) idx' u' i
      = Host.scatterAdd d' (Host.scatterAdd d base idx u) idx' u' i := by
  show base i + Ideal.hostScatterAdd d' (Ideal.hostScatterAdd d z idx u) idx' u' i
    = Ideal.hostScatterAdd d' (Ideal.hostScatterAdd d base idx u) idx' u' i
  unfold Ideal.hostScatterAdd
  rw [hz, zero_add, add_assoc]

end Idealize.ShloMosaic.ScatterAddFromZero

end
-- ==== Proof.Bridge.lean ====
/-
  The reference computes the same function of the arguments.

  The reference gathers the phases at the two ends of every edge in the same way, takes coupling · sin (difference),
  and accumulates it — added at the node an edge leaves, subtracted at the node it enters — starting from the vector
  power − damping · velocity; then it divides by the mass. The kernel's program accumulates the same per-edge vector
  from ZEROS and adds power − damping · velocity afterwards, inside its second pallas_call. Over the extended reals
  addition is associative, so the two agree at every node, whatever the inputs (no finiteness is needed); the division
  is the same operation on both sides.
-/
import proofs.«148377_j68375879352859_2_alg».proof.Proof.Gen.ReferenceIdeal.Read
import proofs.«148377_j68375879352859_2_alg».proof.Proof.KernelValue
import proofs.«148377_j68375879352859_2_alg».proof.Proof.LibScatterAddFromZero
import Idealize.ShloMosaic.PureOps.Ideal.Laws

set_option maxRecDepth 16384

noncomputable section

namespace Cert.ReferenceIdeal.RefValue

open Idealize.ShloMosaic Idealize.SL.Sem Idealize.ShloMosaic.ValueIdx
open Cert.KernelIdeal.Terms Cert.KernelIdeal.Whole

/-- The reference's accumulated vector is the kernel program's accumulation, started from power − damping · velocity
    instead of from zeros: the index preparation, the gathers and the scatters are the same operations. -/
theorem ref_accumulated {F : FTy → Type} [FloatOps F]
    (x0 x1 x2 x4 : (⟨Cert.KernelIdeal.S500000, .f32⟩ : BufTy).Contents (Elt F))
    (x5 : (⟨Cert.KernelIdeal.S16000000, .f32⟩ : BufTy).Contents (Elt F))
    (x6 : (⟨Cert.KernelIdeal.S2x16000000, .i32⟩ : BufTy).Contents (Elt F)) :
    Cert.ReferenceIdeal.Read.val_main_v37 (F := F) x0 x1 x2 x4 x5 x6
      = accumulate (subf x2 (mulf x4 x1)) (rowRaw x6) (colRaw x6) (mulf x5 (Host.sin (phaseDiff x0 x6))) := rfl

/-- The kernel program's start vector is zero at the exact values. -/
theorem zeros_apply (i : Cert.KernelIdeal.S500000.Idx) : zeros (F := Ideal) i = 0 := Ideal.ofBits_zero_f32

/-- At the exact values the reference's result and the kernel program's are one function of the seven arguments. -/
theorem result_eq (x0 x1 x2 x3 x4 : (⟨Cert.KernelIdeal.S500000, .f32⟩ : BufTy).Contents (Elt Ideal))
    (x5 : (⟨Cert.KernelIdeal.S16000000, .f32⟩ : BufTy).Contents (Elt Ideal))
    (x6 : (⟨Cert.KernelIdeal.S2x16000000, .i32⟩ : BufTy).Contents (Elt Ideal)) :
    Cert.ReferenceIdeal.Read.val_main_v38 (F := Ideal) x0 x1 x2 x3 x4 x5 x6 = kernelValue (F := Ideal) x0 x1 x2 x3 x4 x5 x6 := by
  funext n
  obtain ⟨k, rfl⟩ : ∃ k : Fin 500000, n = ix1 k := ⟨n 0, eq_ix1 n⟩
  rw [Cert.ReferenceIdeal.Read.val_main_v38_apply, kernelValue_apply, ref_accumulated]
  show Ideal.div (accumulate (subf x2 (mulf x4 x1)) (rowRaw x6) (colRaw x6) (perEdge x0 x5 x6) (ix1 k)) (x3 (ix1 k))
    = Ideal.div (subf (F := Ideal) x2 (mulf x4 x1) (ix1 k) + accumulate zeros (rowRaw x6) (colRaw x6) (perEdge x0 x5 x6) (ix1 k)) (x3 (ix1 k))
  refine congrArg (fun t => Ideal.div t (x3 (ix1 k))) ?_
  unfold accumulate
  exact (ScatterAddFromZero.add_scatterAdd_scatterAdd (φ := .f32) Cert.KernelIdeal.scatter_S500000_S16000000x1_S16000000_n_0_0_1
    Cert.KernelIdeal.scatter_S500000_S16000000x1_S16000000_n_0_0_1 (subf (F := Ideal) x2 (mulf x4 x1)) (zeros (F := Ideal)) zeros_apply
    (wrapped (F := Ideal) (rowRaw (F := Ideal) x6)) (perEdge x0 x5 x6) (wrapped (F := Ideal) (colRaw (F := Ideal) x6))
    (Host.negf (perEdge x0 x5 x6)) (ix1 k)).symm

end Cert.ReferenceIdeal.RefValue

end
-- ==== Proof.lean ====
/-
  The certificate: the kernel's program and the reference compute the same node accelerations.

  Both programs take the phases, phase velocities, powers, masses and dampings of 500000 nodes, the couplings of
  16,000,000 edges and the edge list. Per edge they form coupling · sin (phase at the entered node − phase at the left
  node); per node they add that at the node an edge leaves and subtract it at the node it enters, add
  power − damping · velocity, and divide by the mass. The kernel's program does the per-edge product in a first
  pallas_call over a 125000 × 128 layout of the edges, accumulates over the nodes on the host from zeros, and does the
  final combination in a second pallas_call over a padded 3907 × 128 layout of the nodes; the reference accumulates
  into power − damping · velocity directly. At the exact values the two differ only by where that vector is added, and
  addition of extended reals is associative.

  The three frames: the two kernel programs' by the generated frame certificates; the reference's from its generated
  run. The idealization rewrote nothing, so `preserves` is trivial. `algebraic`: the kernel program's run ends with
  its result at `kernelValue` of the arguments (KernelRun.lean, KernelValue.lean), the reference's at its generated
  term, and the two terms are one function (Bridge.lean).
-/
import proofs.«148377_j68375879352859_2_alg».proof.Defs
import proofs.«148377_j68375879352859_2_alg».proof.Proof.Gen.Kernel
import proofs.«148377_j68375879352859_2_alg».proof.Proof.Gen.Kernel.Skeleton
import proofs.«148377_j68375879352859_2_alg».proof.Proof.Gen.Kernel.Launch
import proofs.«148377_j68375879352859_2_alg».proof.Proof.Gen.Kernel.Points
import proofs.«148377_j68375879352859_2_alg».proof.Proof.Gen.Kernel.Frame
import proofs.«148377_j68375879352859_2_alg».proof.Proof.Gen.KernelIdeal
import proofs.«148377_j68375879352859_2_alg».proof.Proof.Gen.KernelIdeal.Skeleton
import proofs.«148377_j68375879352859_2_alg».proof.Proof.Gen.KernelIdeal.Launch
import proofs.«148377_j68375879352859_2_alg».proof.Proof.Gen.KernelIdeal.Points
import proofs.«148377_j68375879352859_2_alg».proof.Proof.Gen.KernelIdeal.Frame
import proofs.«148377_j68375879352859_2_alg».proof.Proof.Gen.ReferenceIdeal
import proofs.«148377_j68375879352859_2_alg».proof.Proof.Gen.Pre_finite_inputs
import proofs.«148377_j68375879352859_2_alg».proof.Proof.Gen.ReferenceIdeal.Read
import proofs.«148377_j68375879352859_2_alg».proof.Proof.KernelRun
import proofs.«148377_j68375879352859_2_alg».proof.Proof.KernelValue
import proofs.«148377_j68375879352859_2_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs run, and end with the same result: the kernel program's
    run names its result as a function of the arguments, the reference's run names its own, and the two functions are
    equal at the exact values. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Whole.result_eq m ρ c), (h c).2⟩) (Cert.KernelIdeal.KRun.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2.1, (hagree c).2.2.2.1,
    (hagree c).2.2.2.2.1, (hagree c).2.2.2.2.2.1, (hagree c).2.2.2.2.2.2]
  exact Cert.ReferenceIdeal.RefValue.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
